-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  main_v3
-- ==== Kernel.lean ====
abbrev S8388608x4 : Shape := ⟨2, ![8388608, 4]⟩
abbrev S8192x4 : Shape := ⟨2, ![8192, 4]⟩
abbrev S8192 : Shape := ⟨1, ![8192]⟩
abbrev S8192x1 : Shape := ⟨2, ![8192, 1]⟩

abbrev nBuf : Space → Nat
  | .hbm => 2
  | .vmem => 4
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .local _ .vmem, ⟨0, _⟩ => ⟨S8192x4, .f32⟩
  | .local _ .vmem, ⟨1, _⟩ => ⟨S8192x4, .f32⟩
  | .local _ .vmem, ⟨2, _⟩ => ⟨S8192x4, .f32⟩
  | .local _ .vmem, ⟨3, _⟩ => ⟨S8192x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x4_S8192x4_0_0 : ∀ a, (![0, 0] : Fin 2 → Nat) a + S8192x4.size a ≤ S8192x4.size a
  h_S8192x4 : 0 < S8192x4.numel
  reduces_S8192x4_S8192 : S8192x4.Reduces [1] S8192
  shapeCasts_S8192_S8192x1 : S8192.ShapeCasts S8192x1
  broadcasts_S8192x1_S8192x4 : S8192x1.Broadcasts S8192x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S8388608x4.size a
  hwx0_0 : ∀ i : grid0.Coords, EltTy.bits .f32 = 32 ∨ (Rect.block (s := S8388608x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S8388608x4.size a
  hwx0_1 : ∀ i : grid0.Coords, EltTy.bits .f32 = 32 ∨ (Rect.block (s := S8388608x4) S8192x4.size (cc0_transform_1 i) (hinb0_1 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S_ : Shape := ⟨0, ![]⟩
abbrev S8388608 : Shape := ⟨1, ![8388608]⟩
abbrev S8388608x1 : Shape := ⟨2, ![8388608, 1]⟩

abbrev nBuf : Space → Nat
  | .hbm => 14
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S_, .f32⟩
  | .hbm, ⟨3, _⟩ => ⟨S8388608, .f32⟩
  | .hbm, ⟨4, _⟩ => ⟨S8388608x1, .f32⟩
  | .hbm, ⟨5, _⟩ => ⟨S8388608x1, .f32⟩
  | .hbm, ⟨6, _⟩ => ⟨S_, .f32⟩
  | .hbm, ⟨7, _⟩ => ⟨S8388608x1, .f32⟩
  | .hbm, ⟨8, _⟩ => ⟨S8388608x1, .i1⟩
  | .hbm, ⟨9, _⟩ => ⟨S_, .f32⟩
  | .hbm, ⟨10, _⟩ => ⟨S8388608x1, .f32⟩
  | .hbm, ⟨11, _⟩ => ⟨S8388608x1, .f32⟩
  | .hbm, ⟨12, _⟩ => ⟨S8388608x4, .f32⟩
  | .hbm, ⟨13, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  reducesTo_S8388608x4_S8388608_d1 : S8388608x4.ReducesTo [1] S8388608
  h_S_ : 0 < S_.numel
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S8388608x1_S8388608x4_0_1 : S8388608x1.BroadcastsInDim S8388608x4 (![0, 1] : Fin 2 → Fin S8388608x4.rank)

variable [Facts₀]

class Facts : Prop extends Facts₀ where

variable [Facts]
-- ==== Proof.RowNormSpec.lean ====
/-
  Row-wise L2 normalisation of an [8388608, 4] array over the extended reals, as ONE function of the argument array,
  index by index.  For a row `r` let `s r = Σ_k x[r,k]·x[r,k]` (four terms) and `n r = √(s r)`; a row whose norm is the
  zero word's value is divided by the value of the word 1.0 instead (`guard`), and the entry at `(r, k)` is
  `x[r,k] / guard (n r)`.  Nothing here needs the entries to be finite: the two programs compared against this function
  compute the same four-term sum (only grouped differently, and `+` on the extended reals is associative and commutative),
  the same square root, the same comparison against the same word and the same quotient.
-/
import Idealize.ShloMosaic.PureOps.Ideal
import Idealize.ShloMosaic.Lib.ValueIdx

noncomputable section

open scoped BigOperators

namespace Cert.RowNorm

open Idealize.ShloMosaic Idealize.ShloMosaic.ValueIdx

/-- The argument's and the result's shape. -/
abbrev Rows : Shape := ⟨2, ![8388608, 4]⟩

/-- The sum of the squares of row `r`'s four entries. -/
def sumSq (x : FVec Ideal Rows .f32) (r : Fin 8388608) : Ideal .f32 :=
  ∑ k : Fin 4, x (ix2 r k) * x (ix2 r k)

/-- The zero guard: a norm equal (ordered comparison) to the zero word's value is replaced by the value of the word 1.0. -/
def guard (n : Ideal .f32) : Ideal .f32 :=
  Scalar.select (FloatOps.cmpf (F := Ideal) (φ := .f32) .oeq n (FloatOps.ofBits .f32 0x00000000#32))
    (FloatOps.ofBits (F := Ideal) .f32 0x3F800000#32) n

/-- The normalised entry at row `r`, column `k`. -/
def entry (x : FVec Ideal Rows .f32) (r : Fin 8388608) (k : Fin 4) : Ideal .f32 :=
  Ideal.div (x (ix2 r k)) (guard (Ideal.sqrt (sumSq x r)))

/-- The normalised array. -/
def normalized (x : FVec Ideal Rows .f32) : FVec Ideal Rows .f32 :=
  fun i => entry x (i 0) (i 1)

theorem normalized_apply (x : FVec Ideal Rows .f32) (r : Fin 8388608) (k : Fin 4) :
    normalized x (ix2 r k) = entry x r k := rfl

end Cert.RowNorm

end
-- ==== Proof.RefNorm.lean ====
/-
  The reference's result is the normalised array.  Read one operation at a time, the host program squares the argument,
  adds each row's four squares onto the zero word's value, takes the square root, compares it with the zero word's value,
  selects the value of the word 1.0 or the root, and divides the argument by that, every row's scalar spread over its four
  columns.  The zero the sum starts from is the additive unit, so the row's sum is the plain four-term sum; the host's square
  root and quotient are the extended reals' own.
-/
import proofs.«170695_j62672162783925_1_alg».proof.Proof.Gen.ReferenceIdeal.Read
import proofs.«170695_j62672162783925_1_alg».proof.Proof.RowNormSpec

noncomputable section

open scoped BigOperators

namespace Cert.RowNorm.Ref

open Idealize.ShloMosaic Idealize.ShloMosaic.ValueIdx Cert.ReferenceIdeal Cert.ReferenceIdeal.Read

/-- The reduced operand's index for the entry `(r, k)` and term `k'`, through the two broadcasts, is `(r, k')`. -/
theorem idx_row (r : Fin 8388608) (k k' : Fin 4) :
    idx_main_call0_v1 (idx_main_call0_v2 (idx_main_v5 (ix2 r k))) k' = ix2 r k' :=
  funext fun a => Fin.ext (by match a with | ⟨0, _⟩ => rfl | ⟨1, _⟩ => rfl)

/-- The zero word's value is the additive unit. -/
theorem zero_word_add (s : EReal) : Ideal.ofBits .f32 0x00000000#32 + s = s := by
  rw [Ideal.ofBits_zero_f32, zero_add]

/-- The reference's last stage, index by index, is the normalised array. -/
theorem val_eq (x : (⟨S8388608x4, .f32⟩ : BufTy).Contents (Elt Ideal)) :
    val_main_v6 (F := Ideal) x = Cert.RowNorm.normalized x := by
  funext i
  obtain ⟨r, k, rfl⟩ : ∃ (r : Fin 8388608) (k : Fin 4), i = ix2 r k := ⟨i 0, i 1, eq_ix2 i⟩
  rw [Cert.RowNorm.normalized_apply, val_main_v6_apply, val_main_v5_apply, val_main_v4_apply, val_main_v2_apply,
    val_main_v0_apply, val_main_v1_apply, val_main_v3_apply, val_main_cst_apply, val_main_cst_0_apply,
    val_main_call0_v2_apply, val_main_call0_v1_apply, val_main_call0_cst_apply]
  have hsum : (∑ k' : Fin 4, val_main_call0_v0 (F := Ideal) x
      (idx_main_call0_v1 (idx_main_call0_v2 (idx_main_v5 (ix2 r k))) k')) = Cert.RowNorm.sumSq x r :=
    Finset.sum_congr rfl fun k' _ => by rw [idx_row]; rfl
  rw [hsum]
  show Ideal.div _ (Scalar.select (FloatOps.cmpf (F := Ideal) (φ := .f32) .oeq
      (Ideal.sqrt (Ideal.ofBits .f32 0x00000000#32 + Cert.RowNorm.sumSq x r)) _) _
      (Ideal.sqrt (Ideal.ofBits .f32 0x00000000#32 + Cert.RowNorm.sumSq x r))) = _
  rw [zero_word_add]
  rfl

end Cert.RowNorm.Ref

end
-- ==== Proof.BlockNorm.lean ====
/-
  One block of the kernel's result.  A grid point loads an [8192, 4] block `P` — 8192 whole rows of the argument — and
  leaves in its output block, at `(r, k)`, the entry `P[r,k]` divided by the guarded square root of the lane sum of row
  `r`'s squares.  When `P` is rows `8192·b … 8192·b + 8191` of an array `X`, that lane sum is `X`'s own row sum of
  squares (a row lies inside one block, so nothing outside the block is needed), and the block is the matching block of
  the normalised array.
-/
import proofs.«170695_j62672162783925_1_alg».proof.Proof.Gen.KernelIdeal.Value
import proofs.«170695_j62672162783925_1_alg».proof.Proof.RowNormSpec
import Idealize.ShloMosaic.PureOps.Ideal.Laws

noncomputable section

open scoped BigOperators

namespace Cert.RowNorm.Block

open Idealize.ShloMosaic Idealize.ShloMosaic.ValueIdx Cert.KernelIdeal Cert.KernelIdeal.Gen Cert.KernelIdeal.Value

/-- The lane sums of the block's squares, one per row. -/
abbrev laneSums (P : FVec Ideal S8192x4 .f32) : FVec Ideal S8192 .f32 :=
  multiReduction .add [1] S8192 (mulf P P) 0x00000000#32 reduces_S8192x4_S8192 (.inl rfl) rfl

/-- Row `r`'s lane sum is the four-term sum of its squares. -/
theorem laneSums_apply (P : FVec Ideal S8192x4 .f32) (r : Fin 8192) :
    laneSums P (ix1 r) = ∑ k : Fin 4, P (ix2 r k) * P (ix2 r k) := by
  refine (Ideal.multiReduction_add_single (mulf P P) 0x00000000#32 reduces_S8192x4_S8192 (.inl rfl) rfl (ix1 r)).trans ?_
  refine Finset.sum_congr rfl fun k _ => ?_
  have e : reduces_S8192x4_S8192.lift (ix1 r) k = ix2 r k :=
    funext fun a => Fin.ext (by match a with | ⟨0, _⟩ => rfl | ⟨1, _⟩ => rfl)
  rw [e]
  rfl

/-- The block the body leaves (`E1`, the generated reading of the body's one store) is, where the loaded block is rows
    `8192·b …` of `X`, the normalised array at the matching index. -/
theorem block_eq (X : FVec Ideal Cert.RowNorm.Rows .f32) (P : FVec Ideal S8192x4 .f32) (b : Nat)
    (hP : ∀ (y : S8192x4.Idx) (i : Cert.RowNorm.Rows.Idx), (i 0).val = b * 8192 + (y 0).val → (i 1).val = (y 1).val → P y = X i)
    (y : S8192x4.Idx) (i : Cert.RowNorm.Rows.Idx) (h0 : (i 0).val = b * 8192 + (y 0).val) (h1 : (i 1).val = (y 1).val) :
    E1 (F := Ideal) P y = Cert.RowNorm.normalized X i := by
  obtain ⟨r, k, rfl⟩ : ∃ (r : Fin 8192) (k : Fin 4), y = ix2 r k := ⟨y 0, y 1, eq_ix2 y⟩
  obtain ⟨R, K, rfl⟩ : ∃ (R : Fin 8388608) (K : Fin 4), i = ix2 R K := ⟨i 0, i 1, eq_ix2 i⟩
  have hR : R.val = b * 8192 + r.val := h0
  obtain rfl : K = k := Fin.ext h1
  rw [Cert.RowNorm.normalized_apply]
  have e0 : ix1_0 (ix2 r K) = ix2 r K := funext fun a => Fin.ext (by match a with | ⟨0, _⟩ => rfl | ⟨1, _⟩ => rfl)
  have e1 : ix1_1 (ix2 r K) = ix1 r := funext fun a => Fin.ext (by match a with | ⟨0, _⟩ => rfl)
  have e2 : ix1_2 (ix2 r K) = ix1 r := funext fun a => Fin.ext (by match a with | ⟨0, _⟩ => rfl)
  have hsum : laneSums P (ix1 r) = Cert.RowNorm.sumSq X R := by
    rw [laneSums_apply]
    unfold Cert.RowNorm.sumSq
    refine Finset.sum_congr rfl fun k' _ => ?_
    rw [hP (ix2 r k') (ix2 R k') hR rfl]
  show FloatOps.divf (P (ix1_0 (ix2 r K))) (Scalar.select (FloatOps.cmpf .oeq (FloatOps.sqrt (laneSums P (ix1_1 (ix2 r K))))
      (Scalar.ofBits .f32 0x00000000#32)) (Scalar.ofBits .f32 0x3F800000#32) (FloatOps.sqrt (laneSums P (ix1_2 (ix2 r K))))) = _
  rw [e0, e1, e2, hsum, hP (ix2 r K) (ix2 R K) hR rfl]
  rfl

end Cert.RowNorm.Block

end
-- ==== Proof.KernelNorm.lean ====
/-
  The kernel's result array.  The grid has 1024 points; point `t` stages rows `8192·t … 8192·t + 8191` of the argument and
  writes the same rows of the result, so each row of the result is written by exactly one point (`t = row / 8192`) and the
  1024 blocks cover the array.  What point `t` writes back is block `t` of the normalised argument; hence the whole
  result array is the normalised argument.
-/
import proofs.«170695_j62672162783925_1_alg».proof.Proof.Gen.KernelIdeal.Value
import proofs.«170695_j62672162783925_1_alg».proof.Proof.BlockNorm
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RowNorm.Kern

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- Both windows' block index at point `t` is `(t, 0)` (decided over the 1024 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t` is rows `8192·t … 8192·t + 8191` of the argument. -/
theorem iblk_apply (c : Dev nD) (t : Fin cfg0.N) (y : S8192x4.Idx) (i : S8388608x4.Idx)
    (h0 : (i 0).val = t.val * 8192 + (y 0).val) (h1 : (i 1).val = (y 1).val) :
    (iblk m c 0 t : Vec Ideal S8192x4 .f32) y = (V m c main_arg0 : S8388608x4.Idx → Elt Ideal .f32) i := by
  obtain ⟨e0, e1, -, -⟩ := idx_facts t
  unfold iblk
  rw [View.read_apply]
  show V m c main_arg0 _ = V m c main_arg0 _
  congr 1
  funext a
  apply Fin.ext
  match a with
  | ⟨0, _⟩ => show win0_0.index t (0 : Fin 2) * 8192 + 1 * (y 0).val = (i 0).val; rw [e0, h0]; omega
  | ⟨1, _⟩ => show win0_0.index t (1 : Fin 2) * 4 + 1 * (y 1).val = (i 1).val; rw [e1, h1]; omega

/-- What point `t` writes back is block `t` of the normalised argument. -/
theorem flushed_eq (c : Dev nD) (t : Fin cfg0.N) :
    (dats m 0 c).flushed 1 t
      = ((cfg0.win 1).blk t).view.read (Elt Ideal) (Cert.RowNorm.normalized (V m c main_arg0)) := by
  obtain ⟨-, -, e2, e3⟩ := idx_facts t
  rw [Value.flushed1]
  unfold out0_1
  simp only [View.ld_unit_zero (S := S8192x4) hz]
  funext j
  show View.canon (Val := Elt Ideal) (s := S8192x4) (e := .f32) [⟨r0_0, k0_pay1 (iblk m c 0 t)⟩] j
    = Cert.RowNorm.normalized (V m c main_arg0) (((cfg0.win 1).blk t).view.emb j)
  refine (Value.canon1_eq (F := Ideal) (iblk m c 0 t) j).trans ?_
  refine Cert.RowNorm.Block.block_eq (V m c main_arg0) (iblk m c 0 t) t.val (fun y i h0 h1 => iblk_apply m c t y i h0 h1)
    j (((cfg0.win 1).blk t).view.emb j) ?_ ?_
  · show win0_1.index t (0 : Fin 2) * 8192 + 1 * (j 0).val = t.val * 8192 + (j 0).val
    rw [e2]; omega
  · show win0_1.index t (1 : Fin 2) * 4 + 1 * (j 1).val = (j 1).val
    rw [e3]; omega

/-- An index of the result array is in point `t`'s block iff each coordinate is in the block's range on its axis. -/
theorem mem_blk (t : Fin cfg0.N) (i : S8388608x4.Idx) :
    i ∈ ((cfg0.win 1).blk t).view.set ↔ ∀ a : Fin 2, win0_1.index t a * S8192x4.size a ≤ (i a).val
      ∧ (i a).val < win0_1.index t a * S8192x4.size a + S8192x4.size a := by
  show i ∈ ((View.whole main_v0).slice (win0_1.rect t)).set ↔ _
  rw [View.set_slice_whole, Rect.mem_set_unit]
  exact Iff.rfl

/-- Every index of the result array is in the block of the point its row falls to, `row / 8192`. -/
theorem cover (i : S8388608x4.Idx) :
    ∃ t : Fin cfg0.N, (cfg0.win 1).flush t = true ∧ i ∈ ((cfg0.win 1).blk t).view.set := by
  have hi0 : (i 0).val < 8388608 := (i 0).isLt
  have hi1 : (i 1).val < 4 := (i 1).isLt
  have hN : cfg0.N = 1024 := N_0
  let t : Fin cfg0.N := ⟨(i 0).val / 8192, by rw [hN]; omega⟩
  obtain ⟨-, -, e2, e3⟩ := idx_facts t
  have ht : t.val = (i 0).val / 8192 := rfl
  refine ⟨t, flush0_1 t, ?_⟩
  rw [mem_blk]
  intro a
  match a with
  | ⟨0, _⟩ =>
    show win0_1.index t (0 : Fin 2) * 8192 ≤ (i 0).val ∧ (i 0).val < win0_1.index t (0 : Fin 2) * 8192 + 8192
    rw [e2, ht]; omega
  | ⟨1, _⟩ =>
    show win0_1.index t (1 : Fin 2) * 4 ≤ (i 1).val ∧ (i 1).val < win0_1.index t (1 : Fin 2) * 4 + 4
    rw [e3]; omega

/-- The result array after the run is the normalised argument. -/
theorem final (c : Dev nD) :
    (dats m 0 c).arrAt 1 cfg0.N = Cert.RowNorm.normalized (m ((c : Thread nD τ).loc main_arg0)) :=
  (dats m 0 c).arrAt_eq_of_cover 1 (Cert.RowNorm.normalized (V m c main_arg0)) (fun t _ => flushed_eq m c t) cover

/-- The kernel's run, read: the result array at the normalised argument, the argument unchanged. -/
theorem run : θ_run defs (onTc (τ := τ) (main (F := Ideal))) ⟨m, fun _ => 0, ρ⟩ fun r => ∀ c : Dev nD,
      r.2.mem ((c : Thread nD τ).loc main_v0) = Cert.RowNorm.normalized (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.RowNorm.Kern

end
-- ==== Proof.lean ====
/-
  Row-wise L2 normalisation of a float32[8388608, 4] array: a kernel that normalises 8192 rows per grid point (1024 points)
  against the plain array program `x / where(‖x‖₂ = 0, 1, ‖x‖₂)` with the norm taken along each row of four entries.

  Read over the extended reals, both programs compute, at `(r, k)`,
      x[r,k] / guard (√(Σ_j x[r,j]·x[r,j])),      guard n = 1 if n = 0, else n,
  with the same words for 0 and 1 on both sides.  The kernel gets the row's sum as a lane reduction inside the block that
  holds the row, the reference as a reduction over the whole array's second axis started from the zero word's value; a row
  never straddles two blocks, and adding onto zero changes nothing, so the sums are the same four-term sum.  The square
  root, the comparison, the selection and the quotient are the same extended-real operations on both sides.  No step
  uses that the entries are finite.

  `Cert.RowNorm.normalized` (RowNormSpec) is that function of the argument array; `Cert.RowNorm.Kern.run` (KernelNorm, over
  BlockNorm) says the kernel's result array ends holding it, and `Cert.RowNorm.Ref.val_eq` (RefNorm) that the reference's
  last stage is it.  The three frames are the generated runs; the idealisation rewrote nothing, so `preserves` is trivial.
-/
import proofs.«170695_j62672162783925_1_alg».proof.Defs
import proofs.«170695_j62672162783925_1_alg».proof.Proof.Gen.Kernel
import proofs.«170695_j62672162783925_1_alg».proof.Proof.Gen.Kernel.Skeleton
import proofs.«170695_j62672162783925_1_alg».proof.Proof.Gen.Kernel.Launch
import proofs.«170695_j62672162783925_1_alg».proof.Proof.Gen.Kernel.Points
import proofs.«170695_j62672162783925_1_alg».proof.Proof.Gen.Kernel.Frame
import proofs.«170695_j62672162783925_1_alg».proof.Proof.Gen.KernelIdeal
import proofs.«170695_j62672162783925_1_alg».proof.Proof.Gen.KernelIdeal.Skeleton
import proofs.«170695_j62672162783925_1_alg».proof.Proof.Gen.KernelIdeal.Launch
import proofs.«170695_j62672162783925_1_alg».proof.Proof.Gen.KernelIdeal.Points
import proofs.«170695_j62672162783925_1_alg».proof.Proof.Gen.KernelIdeal.Frame
import proofs.«170695_j62672162783925_1_alg».proof.Proof.Gen.ReferenceIdeal
import proofs.«170695_j62672162783925_1_alg».proof.Proof.Gen.Pre_finite_inputs
import proofs.«170695_j62672162783925_1_alg».proof.Proof.Gen.KernelIdeal.Value
import proofs.«170695_j62672162783925_1_alg».proof.Proof.Gen.ReferenceIdeal.Run
import proofs.«170695_j62672162783925_1_alg».proof.Proof.Gen.ReferenceIdeal.Read
import proofs.«170695_j62672162783925_1_alg».proof.Proof.RowNormSpec
import proofs.«170695_j62672162783925_1_alg».proof.Proof.RefNorm
import proofs.«170695_j62672162783925_1_alg».proof.Proof.BlockNorm
import proofs.«170695_j62672162783925_1_alg».proof.Proof.KernelNorm
import Idealize.ShloMosaic.Adequacy
import Idealize.ShloMosaic.Init

noncomputable section

namespace Cert.Proof

open Idealize.ShloMosaic Idealize.SL.Sem

/-- The word-level kernel runs and leaves its argument as it was. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as it was: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the normalised argument: the kernel's by its blocks, the reference's stage by stage; the arguments
    agree, so the results are equal entry by entry. -/
theorem algebraic : Cert.algebraic_KernelIdeal_ReferenceIdeal := by
  intro m ρ m' ρ' _ hagree
  refine ⟨fun c => Cert.RowNorm.normalized (m ((c.tc : Thread Cert.KernelIdeal.nD Cert.KernelIdeal.τ).loc Cert.KernelIdeal.main_arg0)),
    Cert.RowNorm.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RowNorm.Ref.val_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
